-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : IVec S50000 32) (main_arg1 : FVec F S100000x128 .f32) (main_arg2 : IVec S2x1600000 32) (main_arg3 : FVec F S128x256 .f32) (main_arg4 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000 : Shape := ⟨1, ![50000]⟩
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S50000x1 : Shape := ⟨2, ![50000, 1]⟩
abbrev S50000x128 : Shape := ⟨2, ![50000, 128]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 68
  | .vmem => 11
  | .smem => 0
  | _ => 0

abbrev bufTy : (tb : Table) → Fin (tcTables nBuf tb) → BufTy
  | .hbm, ⟨0, _⟩ => ⟨S50000, .i32⟩
  | .hbm, ⟨1, _⟩ => ⟨S100000x128, .f32⟩
  | .hbm, ⟨2, _⟩ => ⟨S2x1600000, .i32⟩
  | .hbm, ⟨3, _⟩ => ⟨S128x256, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S50000x128, .f32⟩
  | .hbm, ⟨43, _⟩ => ⟨S_, .i32⟩
  | .hbm, ⟨44, _⟩ => ⟨S50000, .i32⟩
  | .hbm, ⟨45, _⟩ => ⟨S50000, .i1⟩
  | .hbm, ⟨46, _⟩ => ⟨S_, .i32⟩
  | .hbm, ⟨47, _⟩ => ⟨S50000, .i32⟩
  | .hbm, ⟨48, _⟩ => ⟨S50000, .i32⟩
  | .hbm, ⟨49, _⟩ => ⟨S50000, .i32⟩
  | .hbm, ⟨50, _⟩ => ⟨S50000x1, .i32⟩
  | .hbm, ⟨51, _⟩ => ⟨S50000x128, .f32⟩
  | .hbm, ⟨52, _⟩ => ⟨S_, .i32⟩
  | .hbm, ⟨53, _⟩ => ⟨S50000, .i32⟩
  | .hbm, ⟨54, _⟩ => ⟨S50000, .i1⟩
  | .hbm, ⟨55, _⟩ => ⟨S_, .i32⟩
  | .hbm, ⟨56, _⟩ => ⟨S50000, .i32⟩
  | .hbm, ⟨57, _⟩ => ⟨S50000, .i32⟩
  | .hbm, ⟨58, _⟩ => ⟨S50000, .i32⟩
  | .hbm, ⟨59, _⟩ => ⟨S50000x1, .i32⟩
  | .hbm, ⟨60, _⟩ => ⟨S50000, .f32⟩
  | .hbm, ⟨61, _⟩ => ⟨S50000x1, .f32⟩
  | .hbm, ⟨62, _⟩ => ⟨S128x128, .f32⟩
  | .hbm, ⟨63, _⟩ => ⟨S128x128, .f32⟩
  | .hbm, ⟨64, _⟩ => ⟨S128x128, .f32⟩
  | .hbm, ⟨65, _⟩ => ⟨S128x128, .f32⟩
  | .hbm, ⟨66, _⟩ => ⟨S1x128, .f32⟩
  | .hbm, ⟨67, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_9 : Ref sig .tc := ⟨.hbm, 52, rfl⟩
abbrev main_v36 : Ref sig .tc := ⟨.hbm, 53, rfl⟩
abbrev main_v37 : Ref sig .tc := ⟨.hbm, 54, rfl⟩
abbrev main_c_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S_S50000 : S_.BroadcastsInDim S50000 (![] : Fin 0 → Fin S50000.rank)
  bcast_S50000_S50000x1_0 : S50000.BroadcastsInDim S50000x1 (![0] : Fin 1 → Fin S50000x1.rank)
  shapeCasts_S50000_S50000x1 : S50000.ShapeCasts S50000x1
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S50000x1_S50000x128_1_0_n_n_0_1_1128_wf : GatherDims.WF S100000x128 S50000x1 S50000x128 [1] [0] [] [0] [] 1 ![1, 128]
  gather_S100000_S50000x1_S50000_n_0_n_n_0_1_1_wf : GatherDims.WF S100000 S50000x1 S50000 [] [0] [] [0] [] 1 ![1]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def gather_S100000_S50000x1_S50000_n_0_n_n_0_1_1 : GatherDims S100000 S50000x1 S50000 where
  offsetDims := []
  collapsedSliceDims := [0]
  operandBatchingDims := []
  startIndicesBatchingDims := []
  startIndexMap := [0]
  indexVectorDim := 1
  sliceSizes := ![1]
  wf := gather_S100000_S50000x1_S50000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v47) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v49) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000 : Shape := ⟨1, ![50000]⟩
abbrev S100000x128 : Shape := ⟨2, ![100000, 128]⟩
abbrev S2x1600000 : Shape := ⟨2, ![2, 1600000]⟩
abbrev S128x256 : Shape := ⟨2, ![128, 256]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S50000x1 : Shape := ⟨2, ![50000, 1]⟩
abbrev S50000x128 : Shape := ⟨2, ![50000, 128]⟩
abbrev S50000x256 : Shape := ⟨2, ![50000, 256]⟩
abbrev S256x128 : Shape := ⟨2, ![256, 128]⟩
abbrev S1x128 : Shape := ⟨2, ![1, 128]⟩

abbrev nBuf : Space → Nat
  | .hbm => 61
  | .vmem => 0
  | .smem => 0
  | _ => 0

abbrev bufTy : (tb : Table) → Fin (tcTables nBuf tb) → BufTy
  | .hbm, ⟨0, _⟩ => ⟨S50000, .i32⟩
  | .hbm, ⟨1, _⟩ => ⟨S100000x128, .f32⟩
  | .hbm, ⟨2, _⟩ => ⟨S2x1600000, .i32⟩
  | .hbm, ⟨3, _⟩ => ⟨S128x256, .f32⟩
  | .hbm, ⟨4, _⟩ => ⟨S128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S50000x128, .f32⟩
  | .hbm, ⟨43, _⟩ => ⟨S_, .i32⟩
  | .hbm, ⟨44, _⟩ => ⟨S50000, .i32⟩
  | .hbm, ⟨45, _⟩ => ⟨S50000, .i1⟩
  | .hbm, ⟨46, _⟩ => ⟨S_, .i32⟩
  | .hbm, ⟨47, _⟩ => ⟨S50000, .i32⟩
  | .hbm, ⟨48, _⟩ => ⟨S50000, .i32⟩
  | .hbm, ⟨49, _⟩ => ⟨S50000, .i32⟩
  | .hbm, ⟨50, _⟩ => ⟨S50000x1, .i32⟩
  | .hbm, ⟨51, _⟩ => ⟨S50000x128, .f32⟩
  | .hbm, ⟨52, _⟩ => ⟨S50000x256, .f32⟩
  | .hbm, ⟨53, _⟩ => ⟨S256x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S50000x128, .f32⟩
  | .hbm, ⟨60, _⟩ => ⟨S50000x128, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  gather_S100000x128_S50000x1_S50000x128_1_0_n_n_0_1_1128_wf : GatherDims.WF S100000x128 S50000x1 S50000x128 [1] [0] [] [0] [] 1 ![1, 128]
  dot_S50000x256_S256x128_S50000x128_1_0_0_1_n_n_wf : DotDims.WF S50000x256 S256x128 S50000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S50000x1_S50000x128_1_0_n_n_0_1_1128 : GatherDims S100000x128 S50000x1 S50000x128 where
  offsetDims := [1]
  collapsedSliceDims := [0]
  operandBatchingDims := []
  startIndicesBatchingDims := []
  startIndexMap := [0]
  indexVectorDim := 1
  sliceSizes := ![1, 128]
  wf := gather_S100000x128_S50000x1_S50000x128_1_0_n_n_0_1_1128_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KernelBody.lean ====
/-
  What one grid point computes, entry by entry.

  At a grid point the body holds a block of 5000 batch rows: the own feature rows `xs`, the neighbour-sum rows `ns`, a
  column `rc` of 5000 reciprocal counts, the two 128 × 128 weight halves `w1`, `w2` and the bias row `bias`. The block
  it stores has, at row p and column q,

      max ( ∑ k, xs[p, k] · w1[k, q]  +  ∑ k, (ns[p, k] · rc[p, 0]) · w2[k, q]  +  bias[0, q] ,  0 ):

  the roundings to a narrower float format on the way into the two products are the identity on the extended reals, each
  product into a zero accumulator is the plain row-by-column sum, the reciprocal column is spread along the 128 lanes and
  the bias row down the 5000 rows.
-/
import proofs.«141466_j42502996361302_2_alg».proof.Proof.Gen.KernelIdeal.Skeleton
import proofs.«141466_j42502996361302_2_alg».proof.Proof.LibDense
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The reciprocal column spread along the lanes, at (p, k), is its entry (p, 0). -/
theorem lanes_apply (rc : Vec Ideal S5000x1 .f32) (h : S5000x1.Broadcasts S5000x128) (p : Fin 5000) (k : Fin 128) :
    broadcastTo S5000x128 rc h (ix2 p k) = rc (ix2 p (0 : Fin 1)) :=
  broadcastTo_apply rc h (ix2 p k) (ix2 p (0 : Fin 1)) (fun a => match a with
    | ⟨0, _⟩ => by show p.val = if (5000 : Nat) = 1 then 0 else p.val; rw [if_neg (by decide)]
    | ⟨1, _⟩ => by show (0 : Nat) = if (1 : Nat) = 1 then 0 else k.val; rw [if_pos rfl])

/-- The bias row spread down the rows, at (p, q), is its entry (0, q). -/
theorem rows_apply (bias : Vec Ideal S1x128 .f32) (h : S1x128.Broadcasts S5000x128) (p : Fin 5000) (q : Fin 128) :
    broadcastTo S5000x128 bias h (ix2 p q) = bias (ix2 (0 : Fin 1) q) :=
  broadcastTo_apply bias h (ix2 p q) (ix2 (0 : Fin 1) q) (fun a => match a with
    | ⟨0, _⟩ => by show (0 : Nat) = if (1 : Nat) = 1 then 0 else p.val; rw [if_pos rfl]
    | ⟨1, _⟩ => by show q.val = if (128 : Nat) = 1 then 0 else q.val; rw [if_neg (by decide)])

/-- The stored block at (p, q): the rectified affine layer of the block's rows. -/
theorem pay_apply (ns : Vec Ideal S5000x128 .f32) (rc : Vec Ideal S5000x1 .f32) (xs : Vec Ideal S5000x128 .f32)
    (w1 w2 : Vec Ideal S128x128 .f32) (bias : Vec Ideal S1x128 .f32) (p : Fin 5000) (q : Fin 128) :
    k0_pay1 (F := Ideal) ns rc xs w1 w2 bias (ix2 p q)
      = Cert.LibDense.relu xs (fun j => ns j * rc (ix2 (j 0) (0 : Fin 1))) w1 w2
          (fun a => bias (ix2 (0 : Fin 1) (a 0))) (ix2 p q) := by
  unfold k0_pay1 Cert.LibDense.relu Cert.LibDense.affine
  simp only [shapeCast_self]
  refine congrArg₂ max (congrArg₂ (· + ·) (congrArg₂ (· + ·) ?_ ?_) ?_) rfl
  · exact Cert.LibDense.matmul_plain (M := 5000) (K := 128) (N := 128) (φ₁ := .bf16) (φ₂ := .bf16) xs w1 (ix2 p q)
  · refine (Cert.LibDense.matmul_plain (M := 5000) (K := 128) (N := 128) (φ₁ := .bf16) (φ₂ := .bf16)
      (mulf (F := Ideal) (φ := .f32) ns (broadcastTo S5000x128 rc broadcasts_S5000x1_S5000x128)) w2 (ix2 p q)).trans ?_
    unfold Cert.LibDense.prod
    refine Finset.sum_congr rfl fun k _ => congrArg (· * w2 (ix2 k q)) ?_
    exact congrArg (ns (ix2 p k) * ·) (lanes_apply rc broadcasts_S5000x1_S5000x128 p k)
  · exact rows_apply bias broadcasts_S1x128_S5000x128 p q

/-- The stored entry against any five arrays the block's rows agree with: if row `p` of the own-feature block is row
    `r` of `a'`, row `p` of the neighbour sums scaled by the reciprocal is row `r` of `x'`, and the weight and bias blocks
    agree with `wl'`, `wr'`, `b'` on column `q`, then the stored (p, q) is the rectified affine layer of those arrays at
    (r, q). -/
theorem pay_rows (ns : Vec Ideal S5000x128 .f32) (rc : Vec Ideal S5000x1 .f32) (xs : Vec Ideal S5000x128 .f32)
    (w1 w2 : Vec Ideal S128x128 .f32) (bias : Vec Ideal S1x128 .f32)
    (a' x' : (⟨2, ![50000, 128]⟩ : Shape).Idx → EReal) (wl' wr' : (⟨2, ![128, 128]⟩ : Shape).Idx → EReal)
    (b' : (⟨1, ![128]⟩ : Shape).Idx → EReal) (p : Fin 5000) (q : Fin 128) (r : Fin 50000)
    (ha : ∀ k : Fin 128, xs (ix2 p k) = a' (ix2 r k))
    (hx : ∀ k : Fin 128, ns (ix2 p k) * rc (ix2 p (0 : Fin 1)) = x' (ix2 r k))
    (hwl : ∀ k : Fin 128, w1 (ix2 k q) = wl' (ix2 k q)) (hwr : ∀ k : Fin 128, w2 (ix2 k q) = wr' (ix2 k q))
    (hb : bias (ix2 (0 : Fin 1) q) = b' (ix1 q)) :
    k0_pay1 (F := Ideal) ns rc xs w1 w2 bias (ix2 p q) = Cert.LibDense.relu a' x' wl' wr' b' (ix2 r q) :=
  (pay_apply ns rc xs w1 w2 bias p q).trans
    (Cert.LibDense.relu_congr (n := 5000) (n' := 50000) (K := 128) (d := 128) xs
      (fun j => ns j * rc (ix2 (j 0) (0 : Fin 1))) a' x' w1 w2 wl' wr'
      (fun a => bias (ix2 (0 : Fin 1) (a 0))) b' (ix2 p q) (ix2 r q) ha hx hwl hwr hb)

end Cert.KernelIdeal.Body

end
-- ==== Proof.LibRows.lean ====
/-
  Rows of a table gathered at, and accumulated into, integer row numbers.

  `x[idx]` of a table `x : [N, C]` (or `[N]`) at row numbers `idx : [E, 1]` reads, for edge `e`, the row whose number is
  `idx[e, 0]` read as a signed integer and clamped into `[0, N − 1]` (`rowOf`). A `segment_sum` of messages `upd : [E, C]`
  (or `[E]`) at row numbers `idx` adds, into row `d`, the messages of exactly those edges `e` whose number `idx[e, 0]`, read
  signed and NOT clamped, is `d` (`edgesInto`): an edge whose number is outside `[0, N)` is dropped. The three sums of
  one program — onto `[N]`, onto `[N, C]` for each width — run over the SAME set of edges, and for an edge of that set the
  clamped row is `d` itself.
-/
import Idealize.ShloMosaic.PureOps.Ideal
import Idealize.ShloMosaic.Lib.ValueIdx

noncomputable section

namespace Cert.Lib.Rows

open Idealize.ShloMosaic Idealize.ShloMosaic.ValueIdx

/-- The row a gather's start index selects: the word read signed, clamped into `[0, N − 1]`. -/
def rowOf (N : Nat) (hN : 0 < N) {w : Nat} (v : BitVec w) : Fin N := ⟨min v.toInt.toNat (N - 1), by omega⟩

/-- The edges a scatter sends to row `d`: those whose row number, read signed, is `d`. -/
def edgesInto {N E w : Nat} (idx : IVec ⟨2, ![E, 1]⟩ w) (d : Fin N) : Finset (Fin E) :=
  Finset.univ.filter fun e => (idx (ix2 e (0 : Fin 1))).toInt = (d.val : Int)

theorem mem_edgesInto {N E w : Nat} (idx : IVec ⟨2, ![E, 1]⟩ w) (d : Fin N) (e : Fin E) :
    e ∈ edgesInto idx d ↔ (idx (ix2 e (0 : Fin 1))).toInt = (d.val : Int) := by
  simp [edgesInto]

/-- For an edge sent to row `d`, the clamped row of the same number is `d`. -/
theorem rowOf_of_toInt {N : Nat} (hN : 0 < N) {w : Nat} (v : BitVec w) (d : Fin N) (h : v.toInt = (d.val : Int)) :
    rowOf N hN v = d := by
  apply Fin.ext
  show min v.toInt.toNat (N - 1) = d.val
  rw [h, Int.toNat_natCast]
  have := d.isLt
  omega

/-! ## Gathers -/

/-- The dimension numbers of `x[idx]` for a table `[N, C]` at row numbers `[E, 1]`. -/
abbrev gatherRowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A gathered row, read at edge `e` and column `k`: the table at the clamped row of `idx[e, 0]`, column `k`. -/
theorem gatherRows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRowsDims N E C wf) x idx (ix2 e k) = x (ix2 (rowOf N hN (idx (ix2 e (0 : Fin 1)))) k) := by
  unfold Host.gather
  congr 1
  funext a
  refine Fin.ext ?_
  match a with
  | ⟨0, _⟩ =>
    show (gatherRowsDims N E C wf).start (ix2 e k) idx 0 + (gatherRowsDims N E C wf).batchCoord (ix2 e k) 0
      + (gatherRowsDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRowsDims N E C wf).startIndexMap from List.mem_singleton.mpr rfl)]
    have hsi : (gatherRowsDims N E C wf).siIdx (ix2 e k) ⟨List.idxOf (0 : Fin 2) (gatherRowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRowsDims N E C wf).start (ix2 e k) idx 1 + (gatherRowsDims N E C wf).batchCoord (ix2 e k) 1
      + (gatherRowsDims N E C wf).offCoord (ix2 e k) 1 = k.val
    rw [GatherDims.batchCoord_eq_zero _ _ _ List.not_mem_nil]
    have hs : (gatherRowsDims N E C wf).start (ix2 e k) idx 1 = 0 := by
      unfold GatherDims.start
      rw [dif_neg (show (1 : Fin 2) ∉ ([0] : List (Fin 2)) by decide)]
    rw [hs]
    have ho : (gatherRowsDims N E C wf).offCoord (ix2 e k) 1 = k.val := by
      unfold GatherDims.offCoord
      rw [dif_pos ((GatherDims.mem_sKept _ _).mpr ⟨(show (1 : Fin 2) ∉ ([0] : List (Fin 2)) by decide), List.not_mem_nil⟩)]
      rfl
    rw [ho]
    omega

/-- The dimension numbers of `x[idx]` for a flat table `[N]` at row numbers `[E, 1]`. -/
abbrev gatherEltsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A gathered element, read at edge `e`: the table at the clamped row of `idx[e, 0]`. -/
theorem gatherElts_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherEltsDims N E wf) x idx (ix1 e) = x (ix1 (rowOf N hN (idx (ix2 e (0 : Fin 1))))) := by
  unfold Host.gather
  congr 1
  funext a
  obtain rfl : a = 0 := Subsingleton.elim _ _
  refine Fin.ext ?_
  show (gatherEltsDims N E wf).start (ix1 e) idx 0 + (gatherEltsDims N E wf).batchCoord (ix1 e) 0
    + (gatherEltsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherEltsDims N E wf).startIndexMap from List.mem_singleton.mpr rfl)]
  have hsi : (gatherEltsDims N E wf).siIdx (ix1 e) ⟨List.idxOf (0 : Fin 1) (gatherEltsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Accumulating scatters -/

/-- An axis is kept exactly when it is not listed. -/
theorem mem_kept {s : Shape} (axes : List (Fin s.rank)) (a : Fin s.rank) : a ∈ s.kept axes ↔ a ∉ axes := by
  simp [Shape.kept, List.mem_filter, List.mem_finRange]

/-- The dimension numbers of a `segment_sum` of rows `[E, C]` into `[N, C]` at row numbers `[E, 1]`. -/
abbrev scatterRowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterRows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis an update starts at its edge's row number, read signed. -/
theorem scatterRows_start0 : (scatterRowsDims N E C wf).start (ix2 e k) idx 0 = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e k) ⟨List.idxOf (0 : Fin 2) (scatterRowsDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero … -/
theorem scatterRows_start1 : (scatterRowsDims N E C wf).start (ix2 e k) idx 1 = 0 := by
  unfold ScatterDims.start
  rw [dif_neg (show (1 : Fin 2) ∉ ([0] : List (Fin 2)) by decide)]

/-- … the row axis has no window coordinate … -/
theorem scatterRows_window0 : (scatterRowsDims N E C wf).window (ix2 e k) 0 = 0 := by
  unfold ScatterDims.window
  rw [dif_neg (fun h => ((mem_kept _ _).mp h) (List.mem_singleton.mpr rfl))]

/-- … and the column axis has the update's column. -/
theorem scatterRows_window1 : (scatterRowsDims N E C wf).window (ix2 e k) 1 = k.val := by
  unfold ScatterDims.window
  rw [dif_pos ((mem_kept _ _).mpr (show (1 : Fin 2) ∉ ([0] : List (Fin 2)) by decide))]
  rfl

/-- WHERE AN UPDATE LANDS: update `(e, k)` lands on element `(d, k')` exactly when edge `e`'s row number, read signed,
    is `d` and the columns agree. -/
theorem scatterRows_resultIdx_iff (d : Fin N) (k' : Fin C) :
    (scatterRowsDims N E C wf).resultIdx? (ix2 e k) idx = some (ix2 d k')
      ↔ (idx (ix2 e (0 : Fin 1))).toInt = (d.val : Int) ∧ k = k' := by
  unfold ScatterDims.resultIdx?
  constructor
  · intro h
    by_cases hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a
    · rw [dif_pos hb] at h
      have hf := Option.some.inj h
      have h0 : ((scatterRowsDims N E C wf).start (ix2 e k) idx 0 + ((scatterRowsDims N E C wf).window (ix2 e k) 0 : Nat)).toNat = d.val :=
        congrArg Fin.val (congrFun hf 0)
      have h1 : ((scatterRowsDims N E C wf).start (ix2 e k) idx 1 + ((scatterRowsDims N E C wf).window (ix2 e k) 1 : Nat)).toNat = k'.val :=
        congrArg Fin.val (congrFun hf 1)
      have hb0 := (hb 0).1
      rw [scatterRows_start0, scatterRows_window0] at h0 hb0
      rw [scatterRows_start1, scatterRows_window1] at h1
      exact ⟨by omega, Fin.ext (by omega)⟩
    · rw [dif_neg hb] at h
      exact absurd h (by simp)
  · rintro ⟨hv, rfl⟩
    have hb : ∀ a, 0 ≤ (scatterRowsDims N E C wf).start (ix2 e k) idx a + (scatterRowsDims N E C wf).window (ix2 e k) a
        ∧ (scatterRowsDims N E C wf).start (ix2 e k) idx a + (scatterRowsDims N E C wf).window (ix2 e k) a < (⟨2, ![N, C]⟩ : Shape).size a := by
      intro a
      match a with
      | ⟨0, _⟩ =>
        show 0 ≤ (scatterRowsDims N E C wf).start (ix2 e k) idx 0 + ((scatterRowsDims N E C wf).window (ix2 e k) 0 : Nat)
          ∧ (scatterRowsDims N E C wf).start (ix2 e k) idx 0 + ((scatterRowsDims N E C wf).window (ix2 e k) 0 : Nat) < (N : Int)
        rw [scatterRows_start0, scatterRows_window0, hv]
        have := d.isLt
        omega
      | ⟨1, _⟩ =>
        show 0 ≤ (scatterRowsDims N E C wf).start (ix2 e k) idx 1 + ((scatterRowsDims N E C wf).window (ix2 e k) 1 : Nat)
          ∧ (scatterRowsDims N E C wf).start (ix2 e k) idx 1 + ((scatterRowsDims N E C wf).window (ix2 e k) 1 : Nat) < (C : Int)
        rw [scatterRows_start1, scatterRows_window1]
        have := k.isLt
        omega
    rw [dif_pos hb]
    refine congrArg some (funext fun a => Fin.ext ?_)
    match a with
    | ⟨0, _⟩ =>
      show ((scatterRowsDims N E C wf).start (ix2 e k) idx 0 + ((scatterRowsDims N E C wf).window (ix2 e k) 0 : Nat)).toNat = d.val
      rw [scatterRows_start0, scatterRows_window0, hv]
      omega
    | ⟨1, _⟩ =>
      show ((scatterRowsDims N E C wf).start (ix2 e k) idx 1 + ((scatterRowsDims N E C wf).window (ix2 e k) 1 : Nat)).toNat = k.val
      rw [scatterRows_start1, scatterRows_window1]
      omega

/-- A `segment_sum` into `[N, C]`, read at `(d, k)`: what was there plus the messages, at column `k`, of the edges sent to
    row `d`. -/
theorem scatterAddRows_apply (x : (⟨2, ![N, C]⟩ : Shape).Idx → EReal) (upd : (⟨2, ![E, C]⟩ : Shape).Idx → EReal) (d : Fin N) :
    Ideal.hostScatterAdd (scatterRowsDims N E C wf) x idx upd (ix2 d k) = x (ix2 d k) + ∑ e ∈ edgesInto idx d, upd (ix2 e k) := by
  unfold Ideal.hostScatterAdd
  congr 1
  have key : ∀ j : (⟨2, ![E, C]⟩ : Shape).Idx, (scatterRowsDims N E C wf).resultIdx? j idx = some (ix2 d k) →
      (idx (ix2 (j 0) (0 : Fin 1))).toInt = (d.val : Int) ∧ j = ix2 (j 0) k := by
    intro j hj
    have h := (scatterRows_resultIdx_iff wf idx (j 0) (j 1) d k).mp
      ((congrArg (fun q => (scatterRowsDims N E C wf).resultIdx? q idx) (eq_ix2 j)).symm.trans hj)
    exact ⟨h.1, (eq_ix2 j).trans (congrArg (fun q : Fin C => (ix2 (j 0) q : (⟨2, ![E, C]⟩ : Shape).Idx)) h.2)⟩
  refine Finset.sum_bij' (fun j _ => j 0) (fun e _ => ix2 e k) ?_ ?_ ?_ ?_ ?_
  · intro j hj
    exact (mem_edgesInto idx d (j 0)).mpr (key j (Finset.mem_filter.mp hj).2).1
  · intro e he
    exact Finset.mem_filter.mpr ⟨Finset.mem_univ _,
      (scatterRows_resultIdx_iff wf idx e k d k).mpr ⟨(mem_edgesInto idx d e).mp he, rfl⟩⟩
  · intro j hj
    exact (key j (Finset.mem_filter.mp hj).2).2.symm
  · intro e _
    rfl
  · intro j hj
    exact congrArg upd (key j (Finset.mem_filter.mp hj).2).2

end ScatterRows

/-- The dimension numbers of a `segment_sum` of elements `[E]` into `[N]` at row numbers `[E, 1]`. -/
abbrev scatterEltsDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterElts
variable {N E w : Nat} (wf : ScatterDims.WF ⟨1, ![N]⟩ ⟨2, ![E, 1]⟩ ⟨1, ![E]⟩ [] [0] [0] 1)
  (idx : IVec ⟨2, ![E, 1]⟩ w) (e : Fin E)

theorem scatterElts_start0 : (scatterEltsDims N E wf).start (ix1 e) idx 0 = (idx (ix2 e (0 : Fin 1))).toInt := by
  unfold ScatterDims.start
  rw [dif_pos (show (0 : Fin 1) ∈ (scatterEltsDims N E wf).scatterDimsToOperandDims from List.mem_singleton.mpr rfl)]
  have hsi : (scatterEltsDims N E wf).siIdx (ix1 e) ⟨List.idxOf (0 : Fin 1) (scatterEltsDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scatterElts_window0 : (scatterEltsDims N E wf).window (ix1 e) 0 = 0 := by
  unfold ScatterDims.window
  rw [dif_neg (fun h => ((mem_kept _ _).mp h) (List.mem_singleton.mpr rfl))]

/-- Update `e` lands on element `d` exactly when edge `e`'s row number, read signed, is `d`. -/
theorem scatterElts_resultIdx_iff (d : Fin N) :
    (scatterEltsDims N E wf).resultIdx? (ix1 e) idx = some (ix1 d) ↔ (idx (ix2 e (0 : Fin 1))).toInt = (d.val : Int) := by
  unfold ScatterDims.resultIdx?
  constructor
  · intro h
    by_cases hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a
    · rw [dif_pos hb] at h
      have hf := Option.some.inj h
      have h0 : ((scatterEltsDims N E wf).start (ix1 e) idx 0 + ((scatterEltsDims N E wf).window (ix1 e) 0 : Nat)).toNat = d.val :=
        congrArg Fin.val (congrFun hf 0)
      have hb0 := (hb 0).1
      rw [scatterElts_start0, scatterElts_window0] at h0 hb0
      omega
    · rw [dif_neg hb] at h
      exact absurd h (by simp)
  · intro hv
    have hb : ∀ a, 0 ≤ (scatterEltsDims N E wf).start (ix1 e) idx a + (scatterEltsDims N E wf).window (ix1 e) a
        ∧ (scatterEltsDims N E wf).start (ix1 e) idx a + (scatterEltsDims N E wf).window (ix1 e) a < (⟨1, ![N]⟩ : Shape).size a := by
      intro a
      match a with
      | ⟨0, _⟩ =>
        show 0 ≤ (scatterEltsDims N E wf).start (ix1 e) idx 0 + ((scatterEltsDims N E wf).window (ix1 e) 0 : Nat)
          ∧ (scatterEltsDims N E wf).start (ix1 e) idx 0 + ((scatterEltsDims N E wf).window (ix1 e) 0 : Nat) < (N : Int)
        rw [scatterElts_start0, scatterElts_window0, hv]
        have := d.isLt
        omega
    rw [dif_pos hb]
    refine congrArg some (funext fun a => Fin.ext ?_)
    match a with
    | ⟨0, _⟩ =>
      show ((scatterEltsDims N E wf).start (ix1 e) idx 0 + ((scatterEltsDims N E wf).window (ix1 e) 0 : Nat)).toNat = d.val
      rw [scatterElts_start0, scatterElts_window0, hv]
      omega

/-- A `segment_sum` into `[N]`, read at `d`: what was there plus the messages of the edges sent to row `d`. -/
theorem scatterAddElts_apply (x : (⟨1, ![N]⟩ : Shape).Idx → EReal) (upd : (⟨1, ![E]⟩ : Shape).Idx → EReal) (d : Fin N) :
    Ideal.hostScatterAdd (scatterEltsDims N E wf) x idx upd (ix1 d) = x (ix1 d) + ∑ e ∈ edgesInto idx d, upd (ix1 e) := by
  unfold Ideal.hostScatterAdd
  congr 1
  refine Finset.sum_bij' (fun j _ => j 0) (fun e _ => ix1 e) ?_ ?_ ?_ ?_ ?_
  · intro j hj
    exact (mem_edgesInto idx d (j 0)).mpr ((scatterElts_resultIdx_iff wf idx (j 0) d).mp
      ((congrArg (fun q => (scatterEltsDims N E wf).resultIdx? q idx) (eq_ix1 j)).symm.trans (Finset.mem_filter.mp hj).2))
  · intro e he
    exact Finset.mem_filter.mpr ⟨Finset.mem_univ _, (scatterElts_resultIdx_iff wf idx e d).mpr ((mem_edgesInto idx d e).mp he)⟩
  · intro j _
    exact (eq_ix1 j).symm
  · intro e _
    rfl
  · intro j _
    exact congrArg upd (eq_ix1 j)

end ScatterElts

/-! ## Row numbers made nonnegative

`x[idx]` first turns a negative row number `v` into `v + N` (python's indexing from the end) and then gathers. For an edge
whose number, read signed, is a row `d` of the table, nothing changes. -/

/-- A row number that is a row of the table is not negative, so the python-style wrap leaves it alone. -/
theorem wrap_of_toInt (v c : BitVec 32) (d : Nat) (h : v.toInt = (d : Int)) :
    Scalar.select (IntOp.cmpi .slt v 0#32) (IntOp.addi v c) v = v := by
  have h0 : IntOp.cmpi .slt v 0#32 = 0#1 := by
    have hlt : ¬ v.toInt < 0 := by rw [h]; omega
    simp [IntOp.cmpi, BitVec.slt, hlt]
  rw [h0]
  exact if_neg (by decide)

end Cert.Lib.Rows

end
-- ==== Proof.LibKSplit.lean ====
/-
  The contraction axis of a matrix product cut into consecutive chunks.

  For `x : [n, K]` and `w : [K, d]` the entry (r, j) of the product is `∑ k, x (r, k) * w (k, j)`. The part of that sum
  over the columns `off ≤ k < off + K'` is the entry of the product of the corresponding column block of `x` with the
  row block of `w`. Cutting `[0, K)` into consecutive chunks cuts the sum into the chunks' parts; on the extended
  reals a finite sum is a sum in a commutative monoid, so the regrouping is free and needs no finiteness.
-/
import proofs.«141466_j42502996361302_2_alg».proof.Proof.LibDense

noncomputable section

namespace Cert.LibKSplit

open Idealize.ShloMosaic Idealize.ShloMosaic.ValueIdx

/-- The part of entry `i`'s row-by-column sum over the `K'` columns from `off`. -/
def part {n K d : ℕ} (x : (⟨2, ![n, K]⟩ : Shape).Idx → EReal) (w : (⟨2, ![K, d]⟩ : Shape).Idx → EReal)
    (off K' : ℕ) (h : off + K' ≤ K) (i : (⟨2, ![n, d]⟩ : Shape).Idx) : EReal :=
  ∑ k : Fin K', x (ix2 (i 0) ⟨off + k.val, by have := k.isLt; omega⟩) * w (ix2 ⟨off + k.val, by have := k.isLt; omega⟩ (i 1))

/-- The whole sum is the part over all `K` columns. -/
theorem prod_eq_part {n K d : ℕ} (x : (⟨2, ![n, K]⟩ : Shape).Idx → EReal) (w : (⟨2, ![K, d]⟩ : Shape).Idx → EReal)
    (i : (⟨2, ![n, d]⟩ : Shape).Idx) : Cert.LibDense.prod x w i = part x w 0 K (by omega) i := by
  unfold Cert.LibDense.prod part
  refine Finset.sum_congr rfl fun k _ => ?_
  have e : (⟨0 + k.val, by have := k.isLt; omega⟩ : Fin K) = k := Fin.ext (Nat.zero_add _)
  rw [e]

/-- A part over `a + b` columns is the part over the first `a` plus the part over the next `b`. -/
theorem part_split {n K d : ℕ} (x : (⟨2, ![n, K]⟩ : Shape).Idx → EReal) (w : (⟨2, ![K, d]⟩ : Shape).Idx → EReal)
    (off a b off' ab : ℕ) (hab : a + b = ab) (hoff : off + a = off') (h : off + ab ≤ K) (i : (⟨2, ![n, d]⟩ : Shape).Idx) :
    part x w off ab h i = part x w off a (by omega) i + part x w off' b (by omega) i := by
  subst hab hoff
  unfold part
  rw [Fin.sum_univ_add]
  refine congrArg₂ (· + ·) rfl (Finset.sum_congr rfl fun k _ => ?_)
  have e : (⟨off + (Fin.natAdd a k).val, by have := k.isLt; simp only [Fin.coe_natAdd]; omega⟩ : Fin K)
      = ⟨off + a + k.val, by have := k.isLt; omega⟩ := Fin.ext (by simp only [Fin.coe_natAdd]; omega)
  exact congrArg₂ (· * ·) (congrArg x (congrArg (ix2 (i 0)) e)) (congrArg w (congrArg (fun r => ix2 r (i 1)) e))

/-- Four consecutive chunks, starting at `0`, `o₁`, `o₂`, `o₃`: the whole sum is the chunks' parts added from the left. -/
theorem prod_chunks4 {n K d : ℕ} (x : (⟨2, ![n, K]⟩ : Shape).Idx → EReal) (w : (⟨2, ![K, d]⟩ : Shape).Idx → EReal)
    (o₁ o₂ o₃ b c e : ℕ) (h₂ : o₁ + b = o₂) (h₃ : o₂ + c = o₃) (h₄ : o₃ + e = K) (i : (⟨2, ![n, d]⟩ : Shape).Idx) :
    Cert.LibDense.prod x w i
      = ((part x w 0 o₁ (by omega) i + part x w o₁ b (by omega) i) + part x w o₂ c (by omega) i) + part x w o₃ e (by omega) i := by
  rw [prod_eq_part, part_split x w 0 o₃ e o₃ K h₄ (Nat.zero_add _) (by omega) i,
    part_split x w 0 o₂ c o₂ o₃ h₃ (Nat.zero_add _) (by omega) i,
    part_split x w 0 o₁ b o₁ o₂ h₂ (Nat.zero_add _) (by omega) i]

/-- An entry of the product reads one row of `x` and one column of `w`: operands that agree there give the same entry. -/
theorem prod_congr {n n' K d : ℕ} (x : (⟨2, ![n, K]⟩ : Shape).Idx → EReal) (x' : (⟨2, ![n', K]⟩ : Shape).Idx → EReal)
    (w w' : (⟨2, ![K, d]⟩ : Shape).Idx → EReal) (i : (⟨2, ![n, d]⟩ : Shape).Idx) (i' : (⟨2, ![n', d]⟩ : Shape).Idx)
    (hx : ∀ k : Fin K, x (ix2 (i 0) k) = x' (ix2 (i' 0) k)) (hw : ∀ k : Fin K, w (ix2 k (i 1)) = w' (ix2 k (i' 1))) :
    Cert.LibDense.prod x w i = Cert.LibDense.prod x' w' i' := by
  unfold Cert.LibDense.prod
  exact Finset.sum_congr rfl fun k _ => congrArg₂ (· * ·) (hx k) (hw k)

end Cert.LibKSplit

end
-- ==== Proof.LibWords.lean ====
/-
  The five 32-bit patterns the two programs spell, as the extended reals they denote: +0.0 is 0, 2.0 is the
  real 2, the all-ones exponent with a zero significand is +∞, 32768.0 = 2¹⁵ is the real 32768, and 1.0 is 1.
  A normal pattern with exponent field E and significand field T denotes (2²³ + T) · 2^(E − 127 − 23).
-/
import Idealize.ShloMosaic.PureOps.Ideal

noncomputable section

namespace Cert.Chamfer.Words

open Idealize.ShloMosaic

/-- +0.0 denotes 0. -/
theorem ofBits_zero : Ideal.ofBits .f32 0x00000000#32 = 0 := by
  simp [Ideal.ofBits, Ideal.ieee]

/-- 2.0: exponent field 128, significand field 0, so 2²³ · 2^(128 − 150) = 2. -/
theorem ofBits_two : Ideal.ofBits .f32 0x40000000#32 = ((2 : ℝ) : EReal) := by
  simp [Ideal.ofBits, Ideal.ieee, -EReal.coe_mul]; norm_num

/-- The all-ones exponent with a zero significand and a clear sign bit denotes +∞. -/
theorem ofBits_top : Ideal.ofBits .f32 0x7F800000#32 = ⊤ := by
  simp [Ideal.ofBits, Ideal.ieee]

/-- 32768.0: exponent field 142, significand field 0, so 2²³ · 2^(142 − 150) = 2¹⁵. -/
theorem ofBits_32768 : Ideal.ofBits .f32 0x47000000#32 = ((32768 : ℝ) : EReal) := by
  simp [Ideal.ofBits, Ideal.ieee, -EReal.coe_mul]; norm_num

/-- 1.0: exponent field 127, significand field 0, so 2²³ · 2^(127 − 150) = 1. -/
theorem ofBits_one : Ideal.ofBits .f32 0x3F800000#32 = 1 := by
  simp [Ideal.ofBits, Ideal.ieee, -EReal.coe_mul]; norm_num

end Cert.Chamfer.Words

end
-- ==== Proof.Layer.lean ====
/-
  One mean-aggregator graph layer on the extended reals, index by index.

  A batch of 50000 nodes reads rows of two tables of 100000 rows and 128 columns: the node features `feat` and the
  per-node sums of neighbour features `nb`; `dm` holds, per node, the neighbour count raised to at least one. Node `r`
  of the batch reads row `rowAt idx r`: its number `idx[r, 0]` read signed and clamped into the table. The layer's entry
  (r, q) is

      max ( ∑ k, feat[row, k] · W[q, k]  +  ∑ k, (nb[row, k] · (1 / dm[row])) · W[q, 128 + k]  +  b[q] ,  0 ).

  Two spellings of it meet here. One scales the neighbour sum by the reciprocal `1 / dm[row]` and multiplies the two
  halves of `W` separately. The other divides the neighbour sum by `dm[row]`, sets the two rows side by side as one row
  of 256 entries and multiplies by the transpose of `W` once. They agree because a quotient by a divisor that is not
  zero is the product with the divisor's reciprocal (both are the product with its inverse, on every extended real, the
  infinities included), and because a finite sum over 256 columns is the sum over the first 128 plus the sum over the
  last 128. Nothing here needs an entry to be finite.
-/
import proofs.«141466_j42502996361302_2_alg».proof.Proof.LibRows
import proofs.«141466_j42502996361302_2_alg».proof.Proof.LibDense
import proofs.«141466_j42502996361302_2_alg».proof.Proof.LibKSplit
import proofs.«141466_j42502996361302_2_alg».proof.Proof.LibWords

noncomputable section

namespace Cert.MeanLayer

open Idealize.ShloMosaic Idealize.ShloMosaic.ValueIdx Cert.Lib.Rows

/-- The value of the f32 word of 1.0. -/
abbrev oneW : EReal := Ideal.ofBits .f32 0x3F800000#32
/-- The value of the f32 word of +0.0. -/
abbrev zeroW : EReal := Ideal.ofBits .f32 0x00000000#32

theorem oneW_eq : oneW = 1 := Cert.Chamfer.Words.ofBits_one

/-- A quotient by a divisor that is not zero is the product with the reciprocal of the divisor: both are the product
    with its inverse, whatever the dividend. -/
theorem div_eq_mul_recip (x d : EReal) (hd : d ≠ 0) : Ideal.div x d = x * Ideal.div oneW d := by
  unfold Ideal.div
  rw [if_neg hd, if_neg hd, oneW_eq, one_mul]

/-- A count raised to at least one is not zero. -/
theorem max_one_ne_zero (e : EReal) : max e oneW ≠ 0 := by
  have h1 : (0 : EReal) < oneW := by rw [oneW_eq]; exact_mod_cast (zero_lt_one : (0 : ℝ) < 1)
  exact ne_of_gt (lt_of_lt_of_le h1 (le_max_right _ _))

/-! ## The layer -/

/-- The table row node `r` of the batch reads. -/
def rowAt (idx : IVec ⟨2, ![50000, 1]⟩ 32) (r : Fin 50000) : Fin 100000 :=
  rowOf 100000 (by decide) (idx (ix2 r (0 : Fin 1)))

/-- The batch's own feature rows. -/
def selfRows (feat : (⟨2, ![100000, 128]⟩ : Shape).Idx → EReal) (idx : IVec ⟨2, ![50000, 1]⟩ 32) :
    (⟨2, ![50000, 128]⟩ : Shape).Idx → EReal :=
  fun i => feat (ix2 (rowAt idx (i 0)) (i 1))

/-- The batch's neighbour means: the neighbour sums scaled by the reciprocal of the raised count. -/
def meanRows (nb : (⟨2, ![100000, 128]⟩ : Shape).Idx → EReal) (dm : (⟨1, ![100000]⟩ : Shape).Idx → EReal)
    (idx : IVec ⟨2, ![50000, 1]⟩ 32) : (⟨2, ![50000, 128]⟩ : Shape).Idx → EReal :=
  fun i => nb (ix2 (rowAt idx (i 0)) (i 1)) * Ideal.div oneW (dm (ix1 (rowAt idx (i 0))))

/-- The transpose of the first 128 columns of `W`: entry (k, q) is `W[q, k]`. -/
def wSelf (W : (⟨2, ![128, 256]⟩ : Shape).Idx → EReal) : (⟨2, ![128, 128]⟩ : Shape).Idx → EReal :=
  fun i => W (ix2 (i 1) ⟨(i 0).val, by have := idx2_lt0 i; omega⟩)

/-- The transpose of the last 128 columns of `W`: entry (k, q) is `W[q, 128 + k]`. -/
def wNb (W : (⟨2, ![128, 256]⟩ : Shape).Idx → EReal) : (⟨2, ![128, 128]⟩ : Shape).Idx → EReal :=
  fun i => W (ix2 (i 1) ⟨128 + (i 0).val, by have := idx2_lt0 i; omega⟩)

/-- The layer: own rows times the first half of `W` transposed, plus neighbour means times the second half, plus the
    bias, rectified. -/
def layer (feat nb : (⟨2, ![100000, 128]⟩ : Shape).Idx → EReal) (dm : (⟨1, ![100000]⟩ : Shape).Idx → EReal)
    (idx : IVec ⟨2, ![50000, 1]⟩ 32) (W : (⟨2, ![128, 256]⟩ : Shape).Idx → EReal) (b : (⟨1, ![128]⟩ : Shape).Idx → EReal) :
    (⟨2, ![50000, 128]⟩ : Shape).Idx → EReal :=
  Cert.LibDense.relu (selfRows feat idx) (meanRows nb dm idx) (wSelf W) (wNb W) b

/-! ## The one-product spelling -/

/-- The layer from rows set side by side: `comb` holds, per node, the own row in its first 128 entries and the
    neighbour sum DIVIDED by the raised count in its last 128; `wt` is the transpose of `W`. One product over the 256
    columns, plus the bias, rectified, is the layer — the divisor being nowhere zero. -/
theorem layer_of_concat (feat nb : (⟨2, ![100000, 128]⟩ : Shape).Idx → EReal) (dm : (⟨1, ![100000]⟩ : Shape).Idx → EReal)
    (idx : IVec ⟨2, ![50000, 1]⟩ 32) (W : (⟨2, ![128, 256]⟩ : Shape).Idx → EReal) (b : (⟨1, ![128]⟩ : Shape).Idx → EReal)
    (comb : (⟨2, ![50000, 256]⟩ : Shape).Idx → EReal) (wt : (⟨2, ![256, 128]⟩ : Shape).Idx → EReal)
    (hdm : ∀ j, dm j ≠ 0)
    (hl : ∀ (r : Fin 50000) (k : Fin 128), comb (ix2 r ⟨k.val, by have := k.isLt; omega⟩) = feat (ix2 (rowAt idx r) k))
    (hr : ∀ (r : Fin 50000) (k : Fin 128), comb (ix2 r ⟨128 + k.val, by have := k.isLt; omega⟩)
      = Ideal.div (nb (ix2 (rowAt idx r) k)) (dm (ix1 (rowAt idx r))))
    (hw : ∀ (k : Fin 256) (q : Fin 128), wt (ix2 k q) = W (ix2 q k))
    (i : (⟨2, ![50000, 128]⟩ : Shape).Idx) :
    max (Cert.LibDense.prod comb wt i + b (ix1 (i 1))) zeroW = layer feat nb dm idx W b i := by
  unfold layer Cert.LibDense.relu Cert.LibDense.affine
  have hsplit : Cert.LibDense.prod comb wt i
      = Cert.LibDense.prod (selfRows feat idx) (wSelf W) i + Cert.LibDense.prod (meanRows nb dm idx) (wNb W) i := by
    rw [Cert.LibKSplit.prod_eq_part, Cert.LibKSplit.part_split comb wt 0 128 128 128 256 rfl rfl (by omega) i]
    unfold Cert.LibKSplit.part Cert.LibDense.prod
    refine congrArg₂ (· + ·) (Finset.sum_congr rfl fun k _ => ?_) (Finset.sum_congr rfl fun k _ => ?_)
    · have e : (⟨0 + k.val, by have := k.isLt; omega⟩ : Fin 256) = ⟨k.val, by have := k.isLt; omega⟩ :=
        Fin.ext (Nat.zero_add _)
      rw [e]
      exact congrArg₂ (· * ·) (hl (i 0) k) (hw _ (i 1))
    · exact congrArg₂ (· * ·) ((hr (i 0) k).trans (div_eq_mul_recip _ _ (hdm _))) (hw _ (i 1))
  rw [hsplit]

end Cert.MeanLayer

end
-- ==== Proof.HostArrays.lean ====
/-
  What the region finds in the six arrays it stages, entry by entry.

  Before the region the host gathers three families of rows at the batch's node numbers — the nodes' own features,
  their neighbour sums, and the reciprocals of their raised neighbour counts —, cuts the weight matrix into its two
  halves and transposes each, and gives the bias a leading unit axis. The neighbour sums, the raised counts and the
  column of node numbers are the same host values the reference computes; they are named here by the reference's
  stages and never opened. Each gather reads the table row whose number is the node's number, read signed and clamped
  into the table: the same row for all three.
-/
import proofs.«141466_j42502996361302_2_alg».proof.Proof.Gen.KernelIdeal.Frame
import proofs.«141466_j42502996361302_2_alg».proof.Proof.Gen.ReferenceIdeal.Read
import proofs.«141466_j42502996361302_2_alg».proof.Proof.Layer
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx Cert.Lib.Rows Cert.MeanLayer

variable (m : (ℓ : Loc nD τ sig) → Buf (Elt Ideal) ℓ) (c : Dev nD)

/-! ## The arguments and the shared host values -/

/-- The batch's node numbers. -/
abbrev nodes : IVec S50000 32 := m ((c : Thread nD τ).loc main_arg0)
/-- The node features. -/
abbrev feat : S100000x128.Idx → EReal := m ((c : Thread nD τ).loc main_arg1)
/-- The edge list. -/
abbrev edges : IVec S2x1600000 32 := m ((c : Thread nD τ).loc main_arg2)
/-- The weight matrix. -/
abbrev wts : S128x256.Idx → EReal := m ((c : Thread nD τ).loc main_arg3)
/-- The bias. -/
abbrev bvec : S128.Idx → EReal := m ((c : Thread nD τ).loc main_arg4)

/-- The column of node numbers the gathers read (negative numbers counted from the end). -/
abbrev col : IVec S50000x1 32 := Cert.ReferenceIdeal.Read.val_main_v28 (F := Ideal) (nodes m c)
/-- Per node, the sum of its neighbours' feature rows. -/
abbrev nbSum : S100000x128.Idx → EReal := Cert.ReferenceIdeal.Read.val_main_v13 (F := Ideal) (feat m c) (edges m c)
/-- Per node, its neighbour count raised to at least one. -/
abbrev degMax : S100000.Idx → EReal := Cert.ReferenceIdeal.Read.val_main_v19 (F := Ideal) (edges m c)

/-! ## The staged arrays as host values -/

set_option maxHeartbeats 1000000 in
/-- The own feature rows: the features gathered at the node numbers. -/
theorem V_self : (V m c main_v28 : S50000x128.Idx → EReal)
    = Host.gather gather_S100000x128_S50000x1_S50000x128_1_0_n_n_0_1_1128 (feat m c) (col m c) := by
  dsimp only [V, hostOps0]; after_results_simp; rfl

set_option maxHeartbeats 1000000 in
/-- The neighbour-sum rows: the per-node sums gathered at the node numbers. -/
theorem V_nb : (V m c main_v35 : S50000x128.Idx → EReal)
    = Host.gather gather_S100000x128_S50000x1_S50000x128_1_0_n_n_0_1_1128 (nbSum m c) (col m c) := by
  dsimp only [V, hostOps0]; after_results_simp <;> rfl

/-- Per node, the reciprocal of its raised neighbour count. -/
def recipTable : S100000.Idx → EReal :=
  Host.divf (F := Ideal) (broadcastInDim S100000 ![] bcast_S_S100000 (constant (F := Ideal) S_ .f32 0x3F800000#32)) (degMax m c)

/-- Its entry: the word of 1.0 divided by the raised count. -/
theorem recipTable_apply (j : S100000.Idx) : recipTable m c j = Ideal.div oneW (degMax m c j) := by
  unfold recipTable
  refine (hostDivf_apply _ _ j).trans (congrArg (Ideal.div · (degMax m c j)) ?_)
  exact (broadcastInDim_scalar_apply bcast_S_S100000 _ j).trans (constant_apply (s := S_) (φ := .f32) 0x3F800000#32 ix0)

set_option maxHeartbeats 1000000 in
/-- The reciprocal column: one over the raised counts, gathered at the node numbers, as a column. -/
theorem V_recip : (V m c main_v43 : S50000x1.Idx → EReal)
    = shapeCast S50000x1 (Host.gather gather_S100000_S50000x1_S50000_n_0_n_n_0_1_1 (recipTable m c) (col m c)) shapeCasts_S50000_S50000x1 := by
  dsimp only [V, hostOps0]; after_results_simp <;> rfl

set_option maxHeartbeats 1000000 in
/-- The first weight half, transposed. -/
theorem V_w1 : (V m c main_v45 : S128x128.Idx → EReal)
    = transpose S128x128 [1, 0] (extractStridedSlice S128x128 ![0, 0] (wts m c) slices_S128x256_S128x128_0_0) transposes_S128x128_S128x128_1_0 := by
  dsimp only [V, hostOps0]; after_results_simp <;> rfl

set_option maxHeartbeats 1000000 in
/-- The second weight half, transposed. -/
theorem V_w2 : (V m c main_v47 : S128x128.Idx → EReal)
    = transpose S128x128 [1, 0] (extractStridedSlice S128x128 ![0, 128] (wts m c) slices_S128x256_S128x128_0_128) transposes_S128x128_S128x128_1_0 := by
  dsimp only [V, hostOps0]; after_results_simp <;> rfl

set_option maxHeartbeats 1000000 in
/-- The bias as a row. -/
theorem V_bias : (V m c main_v48 : S1x128.Idx → EReal) = shapeCast S1x128 (bvec m c) shapeCasts_S128_S1x128 := by
  dsimp only [V, hostOps0]; after_results_simp <;> rfl

/-! ## The staged arrays at an index -/

/-- Own feature row `r`, column `k`: the features at the node's clamped row. -/
theorem self_apply (r : Fin 50000) (k : Fin 128) :
    (V m c main_v28 : S50000x128.Idx → EReal) (ix2 r k) = selfRows (feat m c) (col m c) (ix2 r k) :=
  (congrFun (V_self m c) (ix2 r k)).trans
    (gatherRows_apply (N := 100000) (E := 50000) (C := 128) (by decide)
      Facts₀.gather_S100000x128_S50000x1_S50000x128_1_0_n_n_0_1_1128_wf (feat m c) (col m c) r k)

/-- Neighbour-sum row `r`, column `k`: the per-node sums at the node's clamped row. -/
theorem nb_apply (r : Fin 50000) (k : Fin 128) :
    (V m c main_v35 : S50000x128.Idx → EReal) (ix2 r k) = nbSum m c (ix2 (rowAt (col m c) r) k) :=
  (congrFun (V_nb m c) (ix2 r k)).trans
    (gatherRows_apply (N := 100000) (E := 50000) (C := 128) (by decide)
      Facts₀.gather_S100000x128_S50000x1_S50000x128_1_0_n_n_0_1_1128_wf (nbSum m c) (col m c) r k)

/-- The reciprocal column at row `r`: one over the raised count at the node's clamped row. -/
theorem recip_apply (r : Fin 50000) :
    (V m c main_v43 : S50000x1.Idx → EReal) (ix2 r (0 : Fin 1)) = Ideal.div oneW (degMax m c (ix1 (rowAt (col m c) r))) := by
  refine (congrFun (V_recip m c) (ix2 r (0 : Fin 1))).trans ?_
  refine (shapeCast_apply _ shapeCasts_S50000_S50000x1 (ix2 r (0 : Fin 1)) (ix1 r) ?_).trans ?_
  · rw [Shape.rowMajor_val_one, Shape.rowMajor_val_two]
    show r.val = r.val * 1 + 0
    omega
  · exact (gatherElts_apply (N := 100000) (E := 50000) (by decide) Facts₀.gather_S100000_S50000x1_S50000_n_0_n_n_0_1_1_wf
      (recipTable m c) (col m c) r).trans (recipTable_apply m c _)

/-- The first weight half transposed, at (k, q): `W[q, k]`. -/
theorem w1_apply (k q : Fin 128) : (V m c main_v45 : S128x128.Idx → EReal) (ix2 k q) = wSelf (wts m c) (ix2 k q) := by
  refine (congrFun (V_w1 m c) (ix2 k q)).trans ?_
  refine (transpose_apply [1, 0] _ transposes_S128x128_S128x128_1_0 (ix2 k q) (ix2 q k) (fun b => match b with
    | ⟨0, _⟩ => rfl
    | ⟨1, _⟩ => rfl)).trans ?_
  exact extractStridedSlice_apply ![0, 0] (wts m c) slices_S128x256_S128x128_0_0 (ix2 q k)
    (ix2 q ⟨k.val, by have := k.isLt; omega⟩) (fun a => match a with
    | ⟨0, _⟩ => by show q.val = 0 + q.val; omega
    | ⟨1, _⟩ => by show k.val = 0 + k.val; omega)

/-- The second weight half transposed, at (k, q): `W[q, 128 + k]`. -/
theorem w2_apply (k q : Fin 128) : (V m c main_v47 : S128x128.Idx → EReal) (ix2 k q) = wNb (wts m c) (ix2 k q) := by
  refine (congrFun (V_w2 m c) (ix2 k q)).trans ?_
  refine (transpose_apply [1, 0] _ transposes_S128x128_S128x128_1_0 (ix2 k q) (ix2 q k) (fun b => match b with
    | ⟨0, _⟩ => rfl
    | ⟨1, _⟩ => rfl)).trans ?_
  exact extractStridedSlice_apply ![0, 128] (wts m c) slices_S128x256_S128x128_0_128 (ix2 q k)
    (ix2 q ⟨128 + k.val, by have := k.isLt; omega⟩) (fun a => match a with
    | ⟨0, _⟩ => by show q.val = 0 + q.val; omega
    | ⟨1, _⟩ => by show 128 + k.val = 128 + k.val; rfl)

/-- The bias row at (0, q): `b[q]`. -/
theorem bias_apply (q : Fin 128) : (V m c main_v48 : S1x128.Idx → EReal) (ix2 (0 : Fin 1) q) = bvec m c (ix1 q) := by
  refine (congrFun (V_bias m c) (ix2 (0 : Fin 1) q)).trans ?_
  refine shapeCast_apply _ shapeCasts_S128_S1x128 (ix2 (0 : Fin 1) q) (ix1 q) ?_
  rw [Shape.rowMajor_val_one, Shape.rowMajor_val_two]
  show q.val = 0 * 128 + q.val
  omega

end Cert.KernelIdeal.HostArrays

end
-- ==== Proof.BlockReads.lean ====
/-
  Reading an array through a window's block, at any grid point.

  The grid has ten points. At point `t` the three row windows and the result window hold rows `5000·t … 5000·t + 4999`
  of their arrays, and the two weight windows and the bias window hold their whole arrays. So an array read through a
  window's block at a block position is the array itself at that position moved down by `5000·t` rows (or not moved at
  all), whatever the array holds: every statement here is about an arbitrary array.
-/
import proofs.«141466_j42502996361302_2_alg».proof.Proof.Gen.KernelIdeal.Frame
import Idealize.ShloMosaic.Lib.Pipeline.Value
import Idealize.ShloMosaic.Lib.ValueIdx

noncomputable section

namespace Cert.KernelIdeal.BlockReads

open Cert.KernelIdeal Cert.KernelIdeal.Gen Idealize.ShloMosaic Idealize.ShloMosaic.TcCoe Idealize.SL.Sem
open Idealize.ShloMosaic.ValueIdx

/-- The block indices over the grid: the row arrays and the result move one block of rows per point; the weights and
    the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Through the first row window at point `t`, block position (p, k) is the array's (5000·t + p, k). -/
theorem read_rows0 (A : S50000x128.Idx → EReal) (t : Fin cfg0.N) (p : Fin 5000) (k : Fin 128) (r : Fin 50000)
    (hr : r.val = t.val * 5000 + p.val) :
    ((cfg0.win 0).blk t).view.read (Elt Ideal) A (ix2 p k) = A (ix2 r k) := by
  obtain ⟨e0, e1, -⟩ := idx_facts t
  rw [View.read_apply]
  show A _ = A _
  refine congrArg A (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Through the second row window at point `t`, block position (p, k) is the array's (5000·t + p, k). -/
theorem read_rows1 (A : S50000x128.Idx → EReal) (t : Fin cfg0.N) (p : Fin 5000) (k : Fin 128) (r : Fin 50000)
    (hr : r.val = t.val * 5000 + p.val) :
    ((cfg0.win 1).blk t).view.read (Elt Ideal) A (ix2 p k) = A (ix2 r k) := by
  obtain ⟨-, -, e0, e1, -⟩ := idx_facts t
  rw [View.read_apply]
  show A _ = A _
  refine congrArg A (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Through the column window at point `t`, block position (p, 0) is the column's (5000·t + p, 0). -/
theorem read_col2 (A : S50000x1.Idx → EReal) (t : Fin cfg0.N) (p : Fin 5000) (r : Fin 50000)
    (hr : r.val = t.val * 5000 + p.val) :
    ((cfg0.win 2).blk t).view.read (Elt Ideal) A (ix2 p (0 : Fin 1)) = A (ix2 r (0 : Fin 1)) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 5000 + 1 * p.val = r.val; rw [e0, hr]; omega
  | ⟨1, _⟩ => show win0_2.index t (1 : Fin 2) * 1 + 1 * 0 = 0; rw [e1]

/-- The first weight window holds its whole array at every point. -/
theorem read_whole3 (A : S128x128.Idx → EReal) (t : Fin cfg0.N) (k q : Fin 128) :
    ((cfg0.win 3).blk t).view.read (Elt Ideal) A (ix2 k q) = A (ix2 k q) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The second weight window holds its whole array at every point. -/
theorem read_whole4 (A : S128x128.Idx → EReal) (t : Fin cfg0.N) (k q : Fin 128) :
    ((cfg0.win 4).blk t).view.read (Elt Ideal) A (ix2 k q) = A (ix2 k q) := by
  obtain ⟨-, -, -, -, -, -, -, -, e0, e1, -⟩ := idx_facts t
  rw [View.read_apply]
  show A _ = A _
  refine congrArg A (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- The bias window holds its whole row at every point. -/
theorem read_whole5 (A : S1x128.Idx → EReal) (t : Fin cfg0.N) (q : Fin 128) :
    ((cfg0.win 5).blk t).view.read (Elt Ideal) A (ix2 (0 : Fin 1) q) = A (ix2 (0 : Fin 1) q) := by
  obtain ⟨-, -, -, -, -, -, -, -, -, -, e0, e1, -⟩ := idx_facts t
  rw [View.read_apply]
  show A _ = A _
  refine congrArg A (funext fun a => Fin.ext ?_)
  match a with
  | ⟨0, _⟩ => show win0_5.index t (0 : Fin 2) * 1 + 1 * 0 = 0; rw [e0]
  | ⟨1, _⟩ => show win0_5.index t (1 : Fin 2) * 128 + 1 * q.val = q.val; rw [e1]; omega

/-- A block `P` of 5000 rows that agrees, row by row, with rows `5000·t … 5000·t + 4999` of an array `G` is what the
    result window reads of `G` at point `t`. -/
theorem block_of_rows6 (G : S50000x128.Idx → EReal) (P : Vec Ideal S5000x128 .f32) (t : Fin cfg0.N)
    (h : ∀ (p : Fin 5000) (q : Fin 128) (r : Fin 50000), r.val = t.val * 5000 + p.val → P (ix2 p q) = G (ix2 r q)) :
    (cfg0.win 6).cut (grid0.coords t) P = ((cfg0.win 6).blk t).view.read (Elt Ideal) G := by
  have hN : t.val < 10 := lt_of_lt_of_eq t.isLt (show cfg0.N = 10 from N_0)
  obtain ⟨-, -, -, -, -, -, -, -, -, -, -, -, e0, e1⟩ := idx_facts t
  funext j
  obtain ⟨p, q, rfl⟩ : ∃ (p : Fin 5000) (q : Fin 128), j = ix2 p q := ⟨j 0, j 1, eq_ix2 j⟩
  rw [View.read_apply]
  show P (ix2 p q) = G _
  refine (h p q ⟨t.val * 5000 + p.val, by have := p.isLt; omega⟩ rfl).trans (congrArg G (funext fun a => Fin.ext ?_))
  match a with
  | ⟨0, _⟩ => show t.val * 5000 + p.val = win0_6.index t (0 : Fin 2) * 5000 + 1 * p.val; rw [e0]; omega
  | ⟨1, _⟩ => show q.val = win0_6.index t (1 : Fin 2) * 128 + 1 * q.val; rw [e1]; omega

end Cert.KernelIdeal.BlockReads

end
-- ==== Proof.KernelValue.lean ====
/-
  The kernel's result array as one function of the arguments.

  The grid has ten points; point `t` stages rows `5000·t … 5000·t + 4999` of the three row arrays (own features,
  neighbour sums, reciprocal counts), the whole of the two weight halves and of the bias row, and writes back rows
  `5000·t … 5000·t + 4999` of the result. An entry of the layer reads one row of each row array, one column of each
  weight half and one bias entry, so what point `t` writes back is block `t` of the layer computed from the whole
  arrays; the ten blocks tile the 50000 rows, so the result array ends holding the layer.
-/
import proofs.«141466_j42502996361302_2_alg».proof.Proof.Gen.KernelIdeal.Value
import proofs.«141466_j42502996361302_2_alg».proof.Proof.KernelBody
import proofs.«141466_j42502996361302_2_alg».proof.Proof.HostArrays
import proofs.«141466_j42502996361302_2_alg».proof.Proof.BlockReads

noncomputable section

namespace Cert.KernelIdeal.Whole

open Cert.KernelIdeal Cert.KernelIdeal.Gen Cert.KernelIdeal.Value Cert.KernelIdeal.HostArrays Cert.KernelIdeal.BlockReads
open Idealize.ShloMosaic Idealize.ShloMosaic.TcCoe Idealize.SL.Sem Idealize.ShloMosaic.ValueIdx Cert.MeanLayer
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer of the arguments: what the result array ends holding. -/
def result (c : Dev nD) : S50000x128.Idx → EReal :=
  layer (feat m c) (nbSum m c) (degMax m c) (col m c) (wts m c) (bvec m c)

/-- A neighbour-mean entry, spelt out. -/
theorem meanRows_at (nb : S100000x128.Idx → EReal) (dm : S100000.Idx → EReal) (idx : IVec S50000x1 32) (r : Fin 50000) (k : Fin 128) :
    meanRows nb dm idx (ix2 r k) = nb (ix2 (rowAt idx r) k) * Ideal.div oneW (dm (ix1 (rowAt idx r))) := rfl

/-- Two numbers that are a neighbour-sum entry and the reciprocal of the node's raised count multiply to the
    neighbour-mean entry. -/
theorem mean_entry (a b : EReal) (nb : S100000x128.Idx → EReal) (dm : S100000.Idx → EReal) (idx : IVec S50000x1 32)
    (r : Fin 50000) (k : Fin 128) (h1 : a = nb (ix2 (rowAt idx r) k)) (h2 : b = Ideal.div oneW (dm (ix1 (rowAt idx r)))) :
    a * b = meanRows nb dm idx (ix2 r k) := by
  rw [h1, h2, meanRows_at]

/-! ## The staged blocks as rows of the whole arrays -/

/-- Row `p` of the own-feature block at point `t` is row `5000·t + p` of the array. -/
theorem blk_self (c : Dev nD) (t : Fin cfg0.N) (p : Fin 5000) (k : Fin 128) (r : Fin 50000) (hr : r.val = t.val * 5000 + p.val) :
    (iblk m c 0 t : Vec Ideal S5000x128 .f32) (ix2 p k) = (V m c main_v28 : S50000x128.Idx → EReal) (ix2 r k) :=
  read_rows0 (V m c main_v28) t p k r hr

/-- Row `p` of the neighbour-sum block at point `t` is row `5000·t + p` of the array. -/
theorem blk_nb (c : Dev nD) (t : Fin cfg0.N) (p : Fin 5000) (k : Fin 128) (r : Fin 50000) (hr : r.val = t.val * 5000 + p.val) :
    (iblk m c 1 t : Vec Ideal S5000x128 .f32) (ix2 p k) = (V m c main_v35 : S50000x128.Idx → EReal) (ix2 r k) :=
  read_rows1 (V m c main_v35) t p k r hr

/-- Entry `p` of the reciprocal block at point `t` is entry `5000·t + p` of the column. -/
theorem blk_recip (c : Dev nD) (t : Fin cfg0.N) (p : Fin 5000) (r : Fin 50000) (hr : r.val = t.val * 5000 + p.val) :
    (iblk m c 2 t : Vec Ideal S5000x1 .f32) (ix2 p (0 : Fin 1)) = (V m c main_v43 : S50000x1.Idx → EReal) (ix2 r (0 : Fin 1)) :=
  read_col2 (V m c main_v43) t p r hr

/-- The first weight block is the whole first weight half at every point. -/
theorem blk_w1 (c : Dev nD) (t : Fin cfg0.N) (k q : Fin 128) :
    (iblk m c 3 t : Vec Ideal S128x128 .f32) (ix2 k q) = (V m c main_v45 : S128x128.Idx → EReal) (ix2 k q) :=
  read_whole3 (V m c main_v45) t k q

/-- The second weight block is the whole second weight half at every point. -/
theorem blk_w2 (c : Dev nD) (t : Fin cfg0.N) (k q : Fin 128) :
    (iblk m c 4 t : Vec Ideal S128x128 .f32) (ix2 k q) = (V m c main_v47 : S128x128.Idx → EReal) (ix2 k q) :=
  read_whole4 (V m c main_v47) t k q

/-- The bias block is the whole bias row at every point. -/
theorem blk_bias (c : Dev nD) (t : Fin cfg0.N) (q : Fin 128) :
    (iblk m c 5 t : Vec Ideal S1x128 .f32) (ix2 (0 : Fin 1) q) = (V m c main_v48 : S1x128.Idx → EReal) (ix2 (0 : Fin 1) q) :=
  read_whole5 (V m c main_v48) t q

/-! ## What a point writes back -/

/-- The block a point stores agrees, row by row, with rows `5000·t … 5000·t + 4999` of the layer. -/
theorem stored_rows (c : Dev nD) (t : Fin cfg0.N) (p : Fin 5000) (q : Fin 128) (r : Fin 50000) (hr : r.val = t.val * 5000 + p.val) :
    k0_pay1 (F := Ideal) (iblk m c 1 t) (iblk m c 2 t) (iblk m c 0 t) (iblk m c 3 t) (iblk m c 4 t) (iblk m c 5 t) (ix2 p q)
      = result m c (ix2 r q) := by
  unfold result layer
  exact Cert.KernelIdeal.Body.pay_rows (iblk m c 1 t) (iblk m c 2 t) (iblk m c 0 t) (iblk m c 3 t) (iblk m c 4 t) (iblk m c 5 t)
    (selfRows (feat m c) (col m c)) (meanRows (nbSum m c) (degMax m c) (col m c)) (wSelf (wts m c)) (wNb (wts m c)) (bvec m c) p q r
    (fun k => (blk_self m c t p k r hr).trans (self_apply m c r k))
    (fun k => mean_entry (iblk m c 1 t (ix2 p k)) (iblk m c 2 t (ix2 p (0 : Fin 1))) (nbSum m c) (degMax m c) (col m c) r k
      ((blk_nb m c t p k r hr).trans (nb_apply m c r k)) ((blk_recip m c t p r hr).trans (recip_apply m c r)))
    (fun k => (blk_w1 m c t k q).trans (w1_apply m c k q))
    (fun k => (blk_w2 m c t k q).trans (w2_apply m c k q))
    ((blk_bias m c t q).trans (bias_apply m c q))

/-- Point `t` writes back block `t` of the layer. -/
theorem flushed_eq (c : Dev nD) (t : Fin cfg0.N) :
    (dats m 0 c).flushed 6 t = ((cfg0.win 6).blk t).view.read (Elt Ideal) (result m c) := by
  rw [flushed6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  exact block_of_rows6 (result m c)
    (k0_pay1 (F := Ideal) (iblk m c 1 t) (iblk m c 2 t) (iblk m c 0 t) (iblk m c 3 t) (iblk m c 4 t) (iblk m c 5 t)) t
    (fun p q r hr => stored_rows m c t p q r hr)

/-! ## The ten blocks tile the result -/

/-- An index of the result is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v49).slice (win0_6.rect t)).set ↔ _
  rw [View.set_slice_whole, Rect.mem_set_unit]
  exact Iff.rfl

/-- Row `r` of the result lies in the block of point `r / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, -, -, -, -, -, -, -, e0, e1⟩ := idx_facts ⟨(i 0).val / 5000, ht⟩
  refine ⟨⟨(i 0).val / 5000, ht⟩, flush0_6 _, ?_⟩
  rw [mem_blk]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    rw [e1]
    omega

/-- The result array after the run is the layer of the arguments. -/
theorem final (c : Dev nD) : (dats m 0 c).arrAt 6 cfg0.N = result m c :=
  (dats m 0 c).arrAt_eq_of_cover 6 (result m c) (fun t _ => flushed_eq m c t) cover

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v49) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefValue.lean ====
/-
  The reference's result is the layer.

  The reference divides every row of the neighbour sums by the raised count, gathers the batch's own rows and its
  rows of that quotient, sets the two side by side as one row of 256 entries, multiplies once by the transpose of the
  weight matrix, adds the bias and rectifies. Read at an index this is the one-product spelling of the layer: the two
  gathers read the same clamped row, a gathered quotient is the quotient of the gathered entries, and the raised count
  — a maximum with the word of 1.0 — is nowhere zero.
-/
import proofs.«141466_j42502996361302_2_alg».proof.Proof.Gen.ReferenceIdeal.Read
import proofs.«141466_j42502996361302_2_alg».proof.Proof.Layer
import Idealize.ShloMosaic.Lib.Pipeline.Value
import Idealize.ShloMosaic.Lib.ValueIdx

noncomputable section

namespace Cert.ReferenceIdeal.RefValue

open Cert.ReferenceIdeal Cert.ReferenceIdeal.Read Idealize.ShloMosaic Idealize.ShloMosaic.ValueIdx Cert.Lib.Rows Cert.MeanLayer

variable (x0 : (⟨S50000, .i32⟩ : BufTy).Contents (Elt Ideal)) (x1 : (⟨S100000x128, .f32⟩ : BufTy).Contents (Elt Ideal))
  (x2 : (⟨S2x1600000, .i32⟩ : BufTy).Contents (Elt Ideal)) (x3 : (⟨S128x256, .f32⟩ : BufTy).Contents (Elt Ideal))
  (x4 : (⟨S128, .f32⟩ : BufTy).Contents (Elt Ideal))

/-- The two gathers of the batch read the same column of node numbers. -/
theorem col_eq : val_main_v35 (F := Ideal) x0 = val_main_v28 (F := Ideal) x0 := rfl

/-- The raised count is a maximum with 1.0, so it is nowhere zero. -/
theorem degMax_ne_zero (j : S100000.Idx) : val_main_v19 (F := Ideal) x2 j ≠ 0 := by
  rw [val_main_v19_apply, val_main_v18_apply, val_main_cst_3_apply]
  simp only [Ideal.maximumf_def, Ideal.ofBits_def]
  exact max_one_ne_zero _

/-- The first 128 entries of a side-by-side row are the node's own feature row. -/
theorem comb_left (r : Fin 50000) (k : Fin 128) :
    val_main_v37 (F := Ideal) x0 x1 x2 (ix2 r (⟨k.val, by have := k.isLt; omega⟩ : Fin 256))
      = x1 (ix2 (rowAt (val_main_v28 (F := Ideal) x0) r) k) := by
  unfold val_main_v37
  refine (concatenate_pair_apply_left (1 : Fin 2) (val_main_v29 (F := Ideal) x0 x1) (val_main_v36 (F := Ideal) x0 x1 x2)
    Facts₀.concatenates_S50000x128_S50000x128_S50000x256_d1 (ix2 r (⟨k.val, by have := k.isLt; omega⟩ : Fin 256)) rfl (ix2 r k) (fun b => match b with
      | ⟨0, _⟩ => rfl
      | ⟨1, _⟩ => rfl)).trans ?_
  unfold val_main_v29
  exact gatherRows_apply (N := 100000) (E := 50000) (C := 128) (by decide)
    Facts₀.gather_S100000x128_S50000x1_S50000x128_1_0_n_n_0_1_1128_wf x1 (val_main_v28 (F := Ideal) x0) r k

/-- The last 128 entries are the node's neighbour-sum row divided by its raised count. -/
theorem comb_right (r : Fin 50000) (k : Fin 128) :
    val_main_v37 (F := Ideal) x0 x1 x2 (ix2 r (⟨128 + k.val, by have := k.isLt; omega⟩ : Fin 256))
      = Ideal.div (val_main_v13 (F := Ideal) x1 x2 (ix2 (rowAt (val_main_v28 (F := Ideal) x0) r) k))
          (val_main_v19 (F := Ideal) x2 (ix1 (rowAt (val_main_v28 (F := Ideal) x0) r))) := by
  unfold val_main_v37
  refine (concatenate_pair_apply_right (1 : Fin 2) (val_main_v29 (F := Ideal) x0 x1) (val_main_v36 (F := Ideal) x0 x1 x2)
    Facts₀.concatenates_S50000x128_S50000x128_S50000x256_d1 (ix2 r (⟨128 + k.val, by have := k.isLt; omega⟩ : Fin 256)) rfl rfl (ix2 r k)
    (fun b => match b with
      | ⟨0, _⟩ => fun _ => rfl
      | ⟨1, _⟩ => fun h => absurd rfl h)
    (by show k.val + 128 = 128 + k.val; omega)).trans ?_
  unfold val_main_v36
  rw [col_eq]
  refine (gatherRows_apply (N := 100000) (E := 50000) (C := 128) (by decide)
    Facts₀.gather_S100000x128_S50000x1_S50000x128_1_0_n_n_0_1_1128_wf (val_main_v22 (F := Ideal) x1 x2) (val_main_v28 (F := Ideal) x0) r k).trans ?_
  refine (val_main_v22_apply x1 x2 _).trans ?_
  refine congrArg (Ideal.div (val_main_v13 (F := Ideal) x1 x2 (ix2 (rowAt (val_main_v28 (F := Ideal) x0) r) k))) ?_
  refine (val_main_v21_apply x2 _).trans ((val_main_v20_apply x2 _).trans (congrArg (val_main_v19 (F := Ideal) x2) ?_))
  funext a
  match a with
  | ⟨0, _⟩ => rfl

/-- The transposed weight matrix at (k, q) is `W[q, k]`. -/
theorem wt_apply (k : Fin 256) (q : Fin 128) : val_main_v38 (F := Ideal) x3 (ix2 k q) = x3 (ix2 q k) :=
  (val_main_v38_apply x3 (ix2 k q)).trans (congrArg x3 (funext fun a => match a with
    | ⟨0, _⟩ => rfl
    | ⟨1, _⟩ => rfl))

/-- The reference's result is the layer of its arguments. -/
theorem result_eq : val_main_v43 (F := Ideal) x0 x1 x2 x3 x4
    = layer x1 (val_main_v13 (F := Ideal) x1 x2) (val_main_v19 (F := Ideal) x2) (val_main_v28 (F := Ideal) x0) x3 x4 := by
  funext i
  refine Eq.trans ?_ (layer_of_concat x1 (val_main_v13 (F := Ideal) x1 x2) (val_main_v19 (F := Ideal) x2) (val_main_v28 (F := Ideal) x0) x3 x4
    (val_main_v37 (F := Ideal) x0 x1 x2) (val_main_v38 (F := Ideal) x3) (degMax_ne_zero x2) (comb_left x0 x1 x2) (comb_right x0 x1 x2)
    (wt_apply x3) i)
  refine (val_main_v43_apply x0 x1 x2 x3 x4 i).trans ?_
  rw [Ideal.maximumf_def]
  refine congrArg₂ max ?_ ?_
  · refine (val_main_v42_apply x0 x1 x2 x3 x4 i).trans ?_
    rw [Ideal.addf_def]
    refine congrArg₂ (· + ·) ?_ ?_
    · refine (val_main_v39_apply x0 x1 x2 x3 i).trans ?_
      unfold Cert.LibDense.prod
      refine Finset.sum_congr rfl fun k _ => congrArg₂ (· * ·) (congrArg _ ?_) (congrArg _ ?_)
      · funext a
        match a with
        | ⟨0, _⟩ => rfl
        | ⟨1, _⟩ => rfl
      · funext a
        match a with
        | ⟨0, _⟩ => rfl
        | ⟨1, _⟩ => rfl
    · refine (val_main_v41_apply x4 i).trans ((val_main_v40_apply x4 _).trans (congrArg x4 ?_))
      funext a
      match a with
      | ⟨0, _⟩ => rfl
  · refine (val_main_call0_v0_apply i).trans ((val_main_call0_cst_apply _).trans ?_)
    exact Ideal.ofBits_def _

end Cert.ReferenceIdeal.RefValue

end
-- ==== Proof.lean ====
/-
  A mean-aggregator graph layer, computed two ways, is one function on the extended reals.

  For a batch of 50000 node numbers, node features of 128 columns, an edge list, a 128 × 256 weight matrix `W` and a
  bias `b`, both programs first form, per node of the graph, the sum of its neighbours' feature rows and its neighbour
  count raised to at least one. The result's entry (r, q) is then

      max ( ∑ k, feat[row, k] · W[q, k]  +  ∑ k, mean[row, k] · W[q, 128 + k]  +  b[q] ,  0 ),

  `row` being the table row node `r` of the batch reads and `mean` the neighbour sum over the raised count.

  The kernel gathers the batch's own rows, its neighbour-sum rows and the RECIPROCALS of its raised counts, and at each
  of ten grid points takes 5000 of these rows, scales the neighbour sums by the reciprocal, multiplies the two row
  blocks by the two transposed halves of `W`, adds the bias and rectifies (Proof/KernelBody.lean: the stored block entry
  by entry; Proof/HostArrays.lean: what the staged arrays hold; Proof/KernelValue.lean: the ten blocks tile the result,
  which so ends holding the layer of the whole arrays). The reference DIVIDES the neighbour sums by the raised counts,
  gathers, sets the own row and the mean row side by side and multiplies once by the transpose of `W`
  (Proof/RefValue.lean). The two meet in Proof/Layer.lean: a quotient by a divisor that is not zero is the product with
  the divisor's reciprocal — the raised count is a maximum with 1, so it is never zero —, and a sum over 256 columns is
  the sum over the first 128 plus the sum over the last 128. The neighbour sums, the raised counts and the column of
  node numbers are the same host values in both programs and are never opened; no entry needs to be finite.

  The three programs' runs and unchanged arguments are the generated frame certificates and the reference's generated
  run; the idealization rewrote no operation of the kernel, so there is nothing to preserve.
-/
import proofs.«141466_j42502996361302_2_alg».proof.Defs
import proofs.«141466_j42502996361302_2_alg».proof.Proof.Gen.Kernel
import proofs.«141466_j42502996361302_2_alg».proof.Proof.Gen.Kernel.Skeleton
import proofs.«141466_j42502996361302_2_alg».proof.Proof.Gen.Kernel.Launch
import proofs.«141466_j42502996361302_2_alg».proof.Proof.Gen.Kernel.Points
import proofs.«141466_j42502996361302_2_alg».proof.Proof.Gen.Kernel.Frame
import proofs.«141466_j42502996361302_2_alg».proof.Proof.Gen.KernelIdeal
import proofs.«141466_j42502996361302_2_alg».proof.Proof.Gen.KernelIdeal.Skeleton
import proofs.«141466_j42502996361302_2_alg».proof.Proof.Gen.KernelIdeal.Launch
import proofs.«141466_j42502996361302_2_alg».proof.Proof.Gen.KernelIdeal.Points
import proofs.«141466_j42502996361302_2_alg».proof.Proof.Gen.KernelIdeal.Frame
import proofs.«141466_j42502996361302_2_alg».proof.Proof.Gen.ReferenceIdeal
import proofs.«141466_j42502996361302_2_alg».proof.Proof.Gen.KernelIdeal.Value
import proofs.«141466_j42502996361302_2_alg».proof.Proof.Gen.ReferenceIdeal.Run
import proofs.«141466_j42502996361302_2_alg».proof.Proof.Gen.ReferenceIdeal.Read
import proofs.«141466_j42502996361302_2_alg».proof.Proof.Gen.Pre_finite_inputs
import proofs.«141466_j42502996361302_2_alg».proof.Proof.KernelValue
import proofs.«141466_j42502996361302_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both runs end with the layer of the arguments in their result arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v43_eq _ _ _ _ _).trans ((Cert.ReferenceIdeal.RefValue.result_eq _ _ _ _ _).trans ?_)
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
